-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32x64 : Shape := ⟨3, ![8192, 32, 64]⟩
abbrev S64x64 : Shape := ⟨2, ![64, 64]⟩
abbrev S64 : Shape := ⟨1, ![64]⟩
abbrev S_ : Shape := ⟨0, ![]⟩

class Facts : Prop where
  bcast_S_S8192x32x64 : S_.BroadcastsInDim S8192x32x64 (![] : Fin 0 → Fin S8192x32x64.rank)
  reducesTo_S8192x32x64_S_d0_1_2 : S8192x32x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x32x64 .f32) (main_arg1 : FVec F S64x64 .f32) (main_arg2 : FVec F S64 .f32) : IVec S_ 1 :=
  let main_v0 : FVec F S8192x32x64 .f32 := Host.absf main_arg0
  let main_cst : FVec F S_ .f32 := constant S_ .f32 0x7F800000#32
  let main_v1 : FVec F S8192x32x64 .f32 := broadcastInDim S8192x32x64 ![] bcast_S_S8192x32x64 main_cst
  let main_v2 : IVec S8192x32x64 1 := cmpf .olt main_v0 main_v1
  let main_c : IVec S_ 1 := constantI S_ 1 1#1
  let main_v3 : IVec S_ 1 := (fun x v => Host.reduce IntOp.andi x v reducesTo_S8192x32x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x32x64 : Shape := ⟨3, ![8192, 32, 64]⟩
abbrev S64x64 : Shape := ⟨2, ![64, 64]⟩
abbrev S64 : Shape := ⟨1, ![64]⟩
abbrev S32x64x8192 : Shape := ⟨3, ![32, 64, 8192]⟩
abbrev S64x1 : Shape := ⟨2, ![64, 1]⟩
abbrev S4x64x8192 : Shape := ⟨3, ![4, 64, 8192]⟩
abbrev S1x64x8192 : Shape := ⟨3, ![1, 64, 8192]⟩
abbrev S64x8192 : Shape := ⟨2, ![64, 8192]⟩

abbrev nBuf : Space → Nat
  | .hbm => 7
  | .vmem => 6
  | .smem => 0
  | _ => 0

abbrev bufTy : (tb : Table) → Fin (tcTables nBuf tb) → BufTy
  | .hbm, ⟨0, _⟩ => ⟨S8192x32x64, .f32⟩
  | .hbm, ⟨1, _⟩ => ⟨S64x64, .f32⟩
  | .hbm, ⟨2, _⟩ => ⟨S64, .f32⟩
  | .hbm, ⟨3, _⟩ => ⟨S32x64x8192, .f32⟩
  | .hbm, ⟨4, _⟩ => ⟨S64x1, .f32⟩
  | .hbm, ⟨5, _⟩ => ⟨S32x64x8192, .f32⟩
  | .hbm, ⟨6, _⟩ => ⟨S8192x32x64, .f32⟩
  | .local _ .vmem, ⟨0, _⟩ => ⟨S4x64x8192, .f32⟩
  | .local _ .vmem, ⟨1, _⟩ => ⟨S4x64x8192, .f32⟩
  | .local _ .vmem, ⟨2, _⟩ => ⟨S64x64, .f32⟩
  | .local _ .vmem, ⟨3, _⟩ => ⟨S64x1, .f32⟩
  | .local _ .vmem, ⟨4, _⟩ => ⟨S4x64x8192, .f32⟩
  | .local _ .vmem, ⟨5, _⟩ => ⟨S4x64x8192, .f32⟩
  | _, _ => ⟨S8192x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x64x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S8192x32x64_S32x64x8192_1_2_0 : S8192x32x64.Transposes [1, 2, 0] S32x64x8192
  shapeCasts_S64_S64x1 : S64.ShapeCasts S64x1
  inb_S64x64_S64x64_0_0 : ∀ a, (![0, 0] : Fin 2 → Nat) a + S64x64.size a ≤ S64x64.size a
  h_S64x64 : 0 < S64x64.numel
  inb_S4x64x8192_S1x64x8192_0_0_0 : ∀ a, (![0, 0, 0] : Fin 3 → Nat) a + S1x64x8192.size a ≤ S4x64x8192.size a
  h_S1x64x8192 : 0 < S1x64x8192.numel
  shapeCasts_S1x64x8192_S64x8192 : S1x64x8192.ShapeCasts S64x8192
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  shapeCasts_S64x8192_S1x64x8192 : S64x8192.ShapeCasts S1x64x8192
  inb_S4x64x8192_S1x64x8192_1_0_0 : ∀ a, (![1, 0, 0] : Fin 3 → Nat) a + S1x64x8192.size a ≤ S4x64x8192.size a
  inb_S4x64x8192_S1x64x8192_2_0_0 : ∀ a, (![2, 0, 0] : Fin 3 → Nat) a + S1x64x8192.size a ≤ S4x64x8192.size a
  inb_S4x64x8192_S1x64x8192_3_0_0 : ∀ a, (![3, 0, 0] : Fin 3 → Nat) a + S1x64x8192.size a ≤ S4x64x8192.size a
  transposes_S32x64x8192_S8192x32x64_2_0_1 : S32x64x8192.Transposes [2, 0, 1] S8192x32x64
  dot_S64x64_S64x8192_S64x8192_1_0_0_1_n_n_wf : DotDims.WF S64x64 S64x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x8192.size a ≤ S32x64x8192.size a
  hwx0_0 : ∀ i : grid0.Coords, EltTy.bits .f32 = 32 ∨ (Rect.block (s := S32x64x8192) S4x64x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x64x8192.size a ≤ S32x64x8192.size a
  hwx0_3 : ∀ i : grid0.Coords, EltTy.bits .f32 = 32 ∨ (Rect.block (s := S32x64x8192) S4x64x8192.size (cc0_transform_3 i) (hinb0_3 i)).WholeWords (EltTy.packing .f32)

variable [Facts₀]

def dot_S64x64_S64x8192_S64x8192_1_0_0_1_n_n : DotDims S64x64 S64x8192 S64x8192 where
  lhsContracting := [1]
  rhsContracting := [0]
  lhsNonContracting := [0]
  rhsNonContracting := [1]
  lhsBatch := []
  rhsBatch := []
  wf := dot_S64x64_S64x8192_S64x8192_1_0_0_1_n_n_wf

abbrev win0_0 : Pipeline.Window sig grid0 :=
  Pipeline.Window.ofSpec (Memref.whole main_v0) S4x64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x64x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x32x64 : Shape := ⟨3, ![8192, 32, 64]⟩
abbrev S64x64 : Shape := ⟨2, ![64, 64]⟩
abbrev S64 : Shape := ⟨1, ![64]⟩
abbrev S262144x64 : Shape := ⟨2, ![262144, 64]⟩
abbrev S131072x128 : Shape := ⟨2, ![131072, 128]⟩
abbrev S_ : Shape := ⟨0, ![]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S1024x128 : Shape := ⟨2, ![1024, 128]⟩

abbrev nBuf : Space → Nat
  | .hbm => 16
  | .vmem => 6
  | .smem => 0
  | _ => 0

abbrev bufTy : (tb : Table) → Fin (tcTables nBuf tb) → BufTy
  | .hbm, ⟨0, _⟩ => ⟨S8192x32x64, .f32⟩
  | .hbm, ⟨1, _⟩ => ⟨S64x64, .f32⟩
  | .hbm, ⟨2, _⟩ => ⟨S64, .f32⟩
  | .hbm, ⟨3, _⟩ => ⟨S262144x64, .f32⟩
  | .hbm, ⟨4, _⟩ => ⟨S131072x128, .f32⟩
  | .hbm, ⟨5, _⟩ => ⟨S64x64, .f32⟩
  | .hbm, ⟨6, _⟩ => ⟨S_, .f32⟩
  | .hbm, ⟨7, _⟩ => ⟨S64x64, .f32⟩
  | .hbm, ⟨8, _⟩ => ⟨S64x128, .f32⟩
  | .hbm, ⟨9, _⟩ => ⟨S64x128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S131072x128, .f32⟩
  | .hbm, ⟨14, _⟩ => ⟨S262144x64, .f32⟩
  | .hbm, ⟨15, _⟩ => ⟨S8192x32x64, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S8192x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x32x64_S262144x64 : S8192x32x64.ShapeCasts S262144x64
  shapeCasts_S262144x64_S131072x128 : S262144x64.ShapeCasts S131072x128
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S131072x128_S262144x64 : S131072x128.ShapeCasts S262144x64
  shapeCasts_S262144x64_S8192x32x64 : S262144x64.ShapeCasts S8192x32x64
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S131072x128.size a
  hwx0_3 : ∀ i : grid0.Coords, EltTy.bits .f32 = 32 ∨ (Rect.block (s := S131072x128) S1024x128.size (cc0_transform_3 i) (hinb0_3 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.CfBody.lean ====
/-
  One slice of the channels-first linear layer, read at an entry.  The body of the kernel treats its block of four
  batch rows one row at a time: row a of the block, a 64 x 8192 matrix X_a, goes to W · X_a + b, the bias column b
  spread along the 8192 lanes.  Entry (o, l) of that slice is  ∑ₖ W(o, k) · X_a(k, l) + b(o).  The four stores of the
  body tile the block, so the block the body leaves is the one function
      (a, o, l) ↦ ∑ₖ W(o, k) · X(a, k, l) + b(o)
  of the block it loaded.
-/
import proofs.«132988_g2000303496618400_pallasbulk_434_12_alg».proof.Proof.Gen.KernelIdeal.Frame
import proofs.«132988_g2000303496618400_pallasbulk_434_12_alg».proof.Proof.LibPlainDot
import Idealize.ShloMosaic.Lib.Pipeline.Value
import Idealize.ShloMosaic.Lib.ValueIdx

set_option maxRecDepth 16384

noncomputable section

namespace Cert.KernelIdeal.CfBody

open Cert.KernelIdeal Cert.KernelIdeal.Gen Idealize.ShloMosaic Idealize.ShloMosaic.ValueIdx
open scoped BigOperators

/-- One batch row of the block through the layer: W · X + b, with the unit axis of the row dropped and put back. -/
def slice (w : FVec Ideal S64x64 .f32) (x1 : FVec Ideal S1x64x8192 .f32) (b : FVec Ideal S64x1 .f32) :
    FVec Ideal S1x64x8192 .f32 :=
  shapeCast S1x64x8192
    (addf (matmul dot_S64x64_S64x8192_S64x8192_1_0_0_1_n_n none w (shapeCast S64x8192 x1 Facts₀.shapeCasts_S1x64x8192_S64x8192)
        (constant S64x8192 .f32 0x00000000#32))
      (broadcastTo S64x8192 (shapeCast S64x1 b Facts₀.shapeCasts_S64x1_S64x1) Facts₀.broadcasts_S64x1_S64x8192))
    Facts₀.shapeCasts_S64x8192_S1x64x8192

/-- Entry (0, o, l) of the slice: row o of W against column l of X, plus the bias of row o. -/
theorem slice_apply (w : FVec Ideal S64x64 .f32) (x1 : FVec Ideal S1x64x8192 .f32) (b : FVec Ideal S64x1 .f32)
    (o : Fin 64) (l : Fin 8192) :
    slice w x1 b (ix3 (0 : Fin 1) o l) = (∑ k : Fin 64, w (ix2 o k) * x1 (ix3 (0 : Fin 1) k l)) + b (ix2 o (0 : Fin 1)) := by
  unfold slice
  refine (shapeCast_apply _ _ (ix3 (0 : Fin 1) o l) (ix2 o l) ?_).trans ?_
  · rw [Shape.rowMajor_val_two, Shape.rowMajor_val_three]
    show o.val * 8192 + l.val = (0 * 64 + o.val) * 8192 + l.val
    omega
  rw [addf_apply]
  congr 1
  · refine (matmul_plain_zero_apply _ rfl none _ _ o l).trans ?_
    refine Finset.sum_congr rfl fun k _ => ?_
    congr 1
    refine shapeCast_apply _ _ (ix2 k l) (ix3 (0 : Fin 1) k l) ?_
    rw [Shape.rowMajor_val_two, Shape.rowMajor_val_three]
    show (0 * 64 + k.val) * 8192 + l.val = k.val * 8192 + l.val
    omega
  · refine (broadcastTo_apply _ _ (ix2 o l) (ix2 o (0 : Fin 1)) ?_).trans ?_
    · intro a
      match a with
      | ⟨0, _⟩ => rfl
      | ⟨1, _⟩ => rfl
    · rw [shapeCast_self]

/-- The payloads of the four stores are the slice. -/
theorem pay2_eq (w : Vec Ideal S64x64 .f32) (x1 : Vec Ideal S1x64x8192 .f32) (b : Vec Ideal S64x1 .f32) :
    k0_pay2 w x1 b = slice w x1 b := rfl
theorem pay3_eq (w : Vec Ideal S64x64 .f32) (x1 : Vec Ideal S1x64x8192 .f32) (b : Vec Ideal S64x1 .f32) :
    k0_pay3 w x1 b = slice w x1 b := rfl
theorem pay4_eq (w : Vec Ideal S64x64 .f32) (x1 : Vec Ideal S1x64x8192 .f32) (b : Vec Ideal S64x1 .f32) :
    k0_pay4 w x1 b = slice w x1 b := rfl
theorem pay15_eq (w : Vec Ideal S64x64 .f32) (x1 : Vec Ideal S1x64x8192 .f32) (b : Vec Ideal S64x1 .f32) :
    k0_pay1 (k0_pay5 w x1) b = slice w x1 b := rfl

end Cert.KernelIdeal.CfBody

end
-- ==== Proof.CfBlock.lean ====
/-
  The block the body of the channels-first kernel leaves, as one function of the block it loaded.  The body stores
  four slices, one per batch row of the block, each through the rectangle of that row; the four rectangles tile the
  block.  A slice stored through the rectangle of batch row a is, at (0, o, l) of the rectangle — (a, o, l) of the block —
  row o of W against column l of batch row a plus the bias of row o: the same function of the block index for every a.
-/
import proofs.«132988_g2000303496618400_pallasbulk_434_12_alg».proof.Proof.CfBody

set_option maxRecDepth 16384

noncomputable section

namespace Cert.KernelIdeal.CfBody

open Cert.KernelIdeal Cert.KernelIdeal.Gen Idealize.ShloMosaic Idealize.ShloMosaic.ValueIdx
open scoped BigOperators

/-- What the body leaves in the output block: entry (a, o, l) is row o of W against column l of batch row a of the
    loaded block, plus the bias of row o. -/
def blockFn (x0 : Vec Ideal S4x64x8192 .f32) (w : Vec Ideal S64x64 .f32) (b : Vec Ideal S64x1 .f32) :
    Vec Ideal S4x64x8192 .f32 :=
  fun y => (∑ k : Fin 64, w (ix2 (y 1) k) * x0 (ix3 (y 0) k (y 2))) + b (ix2 (y 1) (0 : Fin 1))

theorem zeros2 : (![0, 0] : Fin 2 → Nat) = fun _ => 0 := funext fun a => by fin_cases a <;> rfl

/-- The slice of the batch row at offset n, stored through that row's rectangle, is the block function there. -/
theorem slice_row (x0 : Vec Ideal S4x64x8192 .f32) (w : Vec Ideal S64x64 .f32) (b : Vec Ideal S64x1 .f32) (n : Nat)
    (inb : ∀ d, (![n, 0, 0] : Fin 3 → Nat) d + S1x64x8192.size d ≤ S4x64x8192.size d) (x : S1x64x8192.Idx) :
    slice (View.ld w r0_0) (View.ld x0 (Rect.unit (s := S4x64x8192) ![n, 0, 0] S1x64x8192.size inb)) (View.ld b r0_2) x
      = blockFn x0 w b ((Rect.unit (s := S4x64x8192) ![n, 0, 0] S1x64x8192.size inb).emb x) := by
  obtain ⟨a, o, l, rfl⟩ : ∃ (a : Fin 1) (o : Fin 64) (l : Fin 8192), x = ix3 a o l := ⟨x 0, x 1, x 2, eq_ix3 x⟩
  obtain rfl : a = 0 := Subsingleton.elim _ _
  rw [slice_apply, View.ld_unit_zero (S := S64x64) zeros2, View.ld_unit_zero (S := S64x1) zeros2]
  unfold blockFn
  have e1 : ((Rect.unit (s := S4x64x8192) ![n, 0, 0] S1x64x8192.size inb).emb (ix3 (0 : Fin 1) o l)) 1 = o :=
    Fin.ext (by show 0 + 1 * o.val = o.val; omega)
  rw [e1]
  congr 1
  refine Finset.sum_congr rfl fun k _ => ?_
  congr 1
  show x0 ((Rect.unit (s := S4x64x8192) ![n, 0, 0] S1x64x8192.size inb).emb (ix3 (0 : Fin 1) k l)) = _
  congr 1
  funext d; apply Fin.ext
  match d with
  | ⟨0, _⟩ => rfl
  | ⟨1, _⟩ => show 0 + 1 * k.val = k.val; omega
  | ⟨2, _⟩ => rfl

/-- The four stores tile the block and each agrees with the block function, so the block the body leaves is it. -/
theorem out0_3_eq (x0 : Vec Ideal S4x64x8192 .f32) (w : Vec Ideal S64x64 .f32) (b : Vec Ideal S64x1 .f32) :
    out0_3 x0 w b = blockFn x0 w b := by
  funext y
  unfold out0_3
  refine View.canon_apply_of_pieces (blockFn x0 w b) _ (fun p hp x => ?_) y (cover0_3 _ _ _ _ y)
  simp only [List.mem_cons, List.not_mem_nil, or_false] at hp
  rcases hp with rfl | rfl | rfl | rfl
  · exact (congrFun (pay2_eq _ _ _) x).trans (slice_row x0 w b 3 _ x)
  · exact (congrFun (pay15_eq _ _ _) x).trans (slice_row x0 w b 2 _ x)
  · exact (congrFun (pay4_eq _ _ _) x).trans (slice_row x0 w b 1 _ x)
  · exact (congrFun (pay3_eq _ _ _) x).trans (slice_row x0 w b 0 _ x)

end Cert.KernelIdeal.CfBody

end
-- ==== Proof.LinearSpec.lean ====
/-
  The linear layer both programs compute, entry by entry: for x : [8192, 32, 64], W : [64, 64] (rows are output
  features, columns input features) and b : [64],
      y(n, s, o) = ∑ₖ W(o, k) · x(n, s, k) + b(o),      k over the 64 input features,
  on the extended reals.  And the one law the packed form of the layer needs: a sum over 128 lanes whose weights vanish
  on one half of the lanes is the sum over the other half.
-/
import Idealize.ShloMosaic.PureOps.Ideal
import Idealize.ShloMosaic.Lib.ValueIdx

noncomputable section

namespace Cert.Linear

open Idealize.ShloMosaic Idealize.ShloMosaic.ValueIdx
open scoped BigOperators

/-- The layer at an entry. -/
def linear (x : (⟨3, ![8192, 32, 64]⟩ : Shape).Idx → EReal) (w : (⟨2, ![64, 64]⟩ : Shape).Idx → EReal)
    (b : (⟨1, ![64]⟩ : Shape).Idx → EReal) : (⟨3, ![8192, 32, 64]⟩ : Shape).Idx → EReal :=
  fun i => (∑ k : Fin 64, w (ix2 (i 2) k) * x (ix3 (i 0) (i 1) k)) + b (ix1 (i 2))

/-- A sum of products whose second factors are all zero is zero (on the extended reals a · 0 = 0 for every a). -/
theorem sum_mul_zero {ι : Type*} [Fintype ι] (f g : ι → EReal) (hg : ∀ k, g k = 0) : ∑ k, f k * g k = 0 :=
  Finset.sum_eq_zero fun k _ => by rw [hg k, mul_zero]

end Cert.Linear

end
-- ==== Proof.CfValue.lean ====
/-
  The value of the channels-first kernel's run.  Before the call the host lays x : [8192, 32, 64] out as
  xt(s, k, n) = x(n, s, k) : [32, 64, 8192] and the bias as a column; the call walks 8 blocks of 4 batch rows (the "batch"
  of the call is the 32 positions s) and writes, block by block, the array
      y(s, o, n) = ∑ₖ W(o, k) · xt(s, k, n) + b(o);
  after the call the host transposes back: result(n, s, o) = y(s, o, n).  So the run ends with
      result(n, s, o) = ∑ₖ W(o, k) · x(n, s, k) + b(o).
-/
import proofs.«132988_g2000303496618400_pallasbulk_434_12_alg».proof.Proof.CfBlock
import proofs.«132988_g2000303496618400_pallasbulk_434_12_alg».proof.Proof.LinearSpec
import Idealize.ShloMosaic.Lib.StableHlo.Run

set_option maxRecDepth 16384

noncomputable section

namespace Cert.KernelIdeal.CfValue

open Cert.KernelIdeal Cert.KernelIdeal.Gen Cert.KernelIdeal.CfBody
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-! ## The arrays the call finds -/

/-- The call's first operand is x with the batch axis moved last. -/
theorem V_v0 (c : Dev nD) : (V m c main_v0 : S32x64x8192.Idx → EReal)
    = transpose S32x64x8192 [1, 2, 0] (m ((c : Thread nD τ).loc main_arg0)) Facts₀.transposes_S8192x32x64_S32x64x8192_1_2_0 := by
  show StableHlo.after hostOps0 (fun b => m (c, b)) (Proc.devRef .tc main_v0) = _
  after_results

/-- Its third operand is the bias as a column. -/
theorem V_v1 (c : Dev nD) : (V m c main_v1 : S64x1.Idx → EReal)
    = shapeCast S64x1 (m ((c : Thread nD τ).loc main_arg2)) Facts₀.shapeCasts_S64_S64x1 := by
  show StableHlo.after hostOps0 (fun b => m (c, b)) (Proc.devRef .tc main_v1) = _
  after_results
  rfl

/-! ## The array the call writes -/

/-- The whole output array of the call as a function of its three operand arrays. -/
def arrFn (xt : S32x64x8192.Idx → EReal) (w : S64x64.Idx → EReal) (bc : S64x1.Idx → EReal) : S32x64x8192.Idx → EReal :=
  fun i => (∑ k : Fin 64, w (ix2 (i 1) k) * xt (ix3 (i 0) k (i 2))) + bc (ix2 (i 1) (0 : Fin 1))

/-- A block of it is the block function of the operands' blocks, once those are read where the output's block lies. -/
theorem blockFn_eq_arrFn (X0 : Vec Ideal S4x64x8192 .f32) (W : Vec Ideal S64x64 .f32) (Bc : Vec Ideal S64x1 .f32)
    (xt : S32x64x8192.Idx → EReal) (w : S64x64.Idx → EReal) (bc : S64x1.Idx → EReal)
    (j : S4x64x8192.Idx) (i : S32x64x8192.Idx)
    (hX : ∀ k : Fin 64, X0 (ix3 (j 0) k (j 2)) = xt (ix3 (i 0) k (i 2)))
    (hW : ∀ k : Fin 64, W (ix2 (j 1) k) = w (ix2 (i 1) k))
    (hB : Bc (ix2 (j 1) (0 : Fin 1)) = bc (ix2 (i 1) (0 : Fin 1))) :
    blockFn X0 W Bc j = arrFn xt w bc i := by
  unfold blockFn arrFn
  rw [hB]
  congr 1
  exact Finset.sum_congr rfl fun k _ => by rw [hX k, hW k]

/-- The index maps, decided over the 8 points: the x block and the output block move together along the first axis
    (point t is block t there), every other block index is zero. -/
theorem idx_facts : ∀ t : Fin cfg0.N, win0_0.index t (0 : Fin 3) = win0_3.index t (0 : Fin 3)
    ∧ win0_0.index t (1 : Fin 3) = 0 ∧ win0_0.index t (2 : Fin 3) = 0
    ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 7 :=
  (by decide +kernel : ∀ t : Fin grid0.N, _)

/-- Every block along the first axis is some point's. -/
theorem idx_onto : ∀ q : Fin 8, ∃ t : Fin cfg0.N, win0_3.index t = ![q.val, 0, 0] :=
  (by decide +kernel : ∀ q : Fin 8, ∃ t : Fin grid0.N, win0_3.index t = ![q.val, 0, 0])

/-- What point t writes back is block t of the array function of the operands as the call finds them. -/
theorem flushed_eq (c : Dev nD) (t : Fin cfg0.N) :
    (dats m 0 c).flushed 3 t
      = ((cfg0.win 3).blk t).view.read (Elt Ideal) (arrFn (V m c main_v0) (V m c main_arg1) (V m c main_v1)) := by
  show (cfg0.win 3).cut (grid0.coords t) ((dats m 0 c).after 3 t) = _
  rw [after0_3, out0_3_eq]
  obtain ⟨e0, e1, e2, e3, e4, e5, e6, e7, e8, -⟩ := idx_facts t
  funext j
  refine blockFn_eq_arrFn _ _ _ _ _ _ j (((cfg0.win 3).blk t).view.emb j) (fun k => ?_) (fun k => ?_) ?_
  · show V m c main_v0 (((cfg0.win 0).blk t).view.emb (ix3 (j 0) k (j 2))) = V m c main_v0 _
    congr 1
    funext a; apply Fin.ext
    match a with
    | ⟨0, _⟩ => show win0_0.index t (0 : Fin 3) * 4 + 1 * (j 0).val = win0_3.index t (0 : Fin 3) * 4 + 1 * (j 0).val; omega
    | ⟨1, _⟩ => show win0_0.index t (1 : Fin 3) * 64 + 1 * k.val = k.val; omega
    | ⟨2, _⟩ => show win0_0.index t (2 : Fin 3) * 8192 + 1 * (j 2).val = win0_3.index t (2 : Fin 3) * 8192 + 1 * (j 2).val; omega
  · show V m c main_arg1 (((cfg0.win 1).blk t).view.emb (ix2 (j 1) k)) = V m c main_arg1 _
    congr 1
    funext a; apply Fin.ext
    match a with
    | ⟨0, _⟩ => show win0_1.index t (0 : Fin 2) * 64 + 1 * (j 1).val = win0_3.index t (1 : Fin 3) * 64 + 1 * (j 1).val; omega
    | ⟨1, _⟩ => show win0_1.index t (1 : Fin 2) * 64 + 1 * k.val = k.val; omega
  · show V m c main_v1 (((cfg0.win 2).blk t).view.emb (ix2 (j 1) (0 : Fin 1))) = V m c main_v1 _
    congr 1
    funext a; apply Fin.ext
    match a with
    | ⟨0, _⟩ => show win0_2.index t (0 : Fin 2) * 64 + 1 * (j 1).val = win0_3.index t (1 : Fin 3) * 64 + 1 * (j 1).val; omega
    | ⟨1, _⟩ => show win0_2.index t (1 : Fin 2) * 1 + 1 * 0 = 0; omega

/-- An index of the array is in point t's block iff each coordinate is in the block's range on its axis. -/
theorem mem_blk (t : Fin cfg0.N) (i : S32x64x8192.Idx) :
    i ∈ ((cfg0.win 3).blk t).view.set ↔ ∀ a : Fin 3, win0_3.index t a * S4x64x8192.size a ≤ (i a).val
      ∧ (i a).val < win0_3.index t a * S4x64x8192.size a + S4x64x8192.size a := by
  show i ∈ ((View.whole main_v2).slice (win0_3.rect t)).set ↔ _
  rw [View.set_slice_whole, Rect.mem_set_unit]
  exact Iff.rfl

/-- Every index is in some point's block: the one of its four batch rows. -/
theorem cover (i : S32x64x8192.Idx) :
    ∃ t : Fin cfg0.N, (cfg0.win 3).flush t = true ∧ i ∈ ((cfg0.win 3).blk t).view.set := by
  have hi0 : (i 0).val < 32 := (i 0).isLt
  have hi1 : (i 1).val < 64 := (i 1).isLt
  have hi2 : (i 2).val < 8192 := (i 2).isLt
  obtain ⟨t, ht⟩ := idx_onto ⟨(i 0).val / 4, by omega⟩
  have q0 : win0_3.index t (0 : Fin 3) = (i 0).val / 4 := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 4 ≤ (i 0).val ∧ (i 0).val < win0_3.index t (0 : Fin 3) * 4 + 4; omega
  | ⟨1, _⟩ => show win0_3.index t (1 : Fin 3) * 64 ≤ (i 1).val ∧ (i 1).val < win0_3.index t (1 : Fin 3) * 64 + 64; omega
  | ⟨2, _⟩ => show win0_3.index t (2 : Fin 3) * 8192 ≤ (i 2).val ∧ (i 2).val < win0_3.index t (2 : Fin 3) * 8192 + 8192; omega

/-- The array after the call. -/
theorem final (c : Dev nD) :
    (dats m 0 c).arrAt 3 cfg0.N = arrFn (V m c main_v0) (V m c main_arg1) (V m c main_v1) :=
  (dats m 0 c).arrAt_eq_of_cover 3 _ (fun t _ => flushed_eq m c t) cover

/-! ## The transposes around the call, and the run -/

/-- The transposes and the bias column read at an entry: the written array, transposed back, is the linear layer. -/
theorem result_eq (x : S8192x32x64.Idx → EReal) (w : S64x64.Idx → EReal) (b : S64.Idx → EReal) :
    transpose S8192x32x64 [2, 0, 1]
        (arrFn (transpose S32x64x8192 [1, 2, 0] x Facts₀.transposes_S8192x32x64_S32x64x8192_1_2_0) w
          (shapeCast S64x1 b Facts₀.shapeCasts_S64_S64x1))
        Facts₀.transposes_S32x64x8192_S8192x32x64_2_0_1
      = Cert.Linear.linear x w b := by
  funext i
  obtain ⟨n, s, o, rfl⟩ : ∃ (n : Fin 8192) (s : Fin 32) (o : Fin 64), i = ix3 n s o := ⟨i 0, i 1, i 2, eq_ix3 i⟩
  refine (transpose_apply _ _ _ (ix3 n s o) (ix3 s o n) ?_).trans ?_
  · intro d
    match d with
    | ⟨0, _⟩ => rfl
    | ⟨1, _⟩ => rfl
    | ⟨2, _⟩ => rfl
  unfold arrFn Cert.Linear.linear
  congr 1
  · refine Finset.sum_congr rfl fun k _ => ?_
    congr 1
    refine transpose_apply _ _ _ (ix3 s k n) (ix3 n s k) ?_
    intro d
    match d with
    | ⟨0, _⟩ => rfl
    | ⟨1, _⟩ => rfl
    | ⟨2, _⟩ => rfl
  · refine shapeCast_apply _ _ (ix2 o (0 : Fin 1)) (ix1 o) ?_
    rw [Shape.rowMajor_val_one, Shape.rowMajor_val_two]
    show o.val = o.val * 1 + 0
    omega

/-- After the lines that follow the call, the result buffer holds the written array transposed back. -/
theorem tail_v3 (c : Dev nD) :
    (Pipeline.afterTail₀ cfgs (dats m) 0 (V0 m) [hostOps1] c main_v3 : S8192x32x64.Idx → EReal)
      = transpose S8192x32x64 [2, 0, 1] ((dats m 0 c).arrAt 3 cfg0.N) Facts₀.transposes_S32x64x8192_S8192x32x64_2_0_1 := by
  unfold Pipeline.afterTail₀
  show StableHlo.after hostOps1 _ (Proc.devRef .tc main_v3) = _
  after_results
  congr 1
  exact Pipeline.withArrays_arr spec0 launch0.win.arr_inj c _ _ 3

/-- The run: it ends with the result at the linear layer of the arguments, and the arguments unchanged. -/
theorem run : θ_run defs (onTc (τ := τ) (main (F := Ideal))) ⟨m, fun _ => 0, ρ⟩ fun r => ∀ c : Dev nD,
      r.2.mem ((c : Thread nD τ).loc main_v3)
        = Cert.Linear.linear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v3 (Pipeline.mem_restRefs_of main_v3 (by decide) (by decide))).trans (by
        rw [tail_v3, final, V_v0, V_v1, V_main_arg1]
        exact result_eq _ _ _),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.CfValue

end
-- ==== Proof.PackedBody.lean ====
/-
  The body of the packed kernel, read at an entry.  It loads a block X of 1024 packed rows (128 lanes: two rows of 64
  features side by side), the 128 x 128 weight B and the one-row bias c, and stores X · B + c, the bias row spread over
  the 1024 rows.  Entry (r, q) of what it stores is  ∑ₖ X(r, k) · B(k, q) + c(0, q),  k over the 128 lanes.
-/
import proofs.«132988_g2000303496618400_pallasbulk_434_12_alg».proof.Proof.Gen.ReferenceIdeal.Frame
import proofs.«132988_g2000303496618400_pallasbulk_434_12_alg».proof.Proof.LibPlainDot
import Idealize.ShloMosaic.Lib.Pipeline.Value
import Idealize.ShloMosaic.Lib.ValueIdx

set_option maxRecDepth 16384

noncomputable section

namespace Cert.ReferenceIdeal.PackedBody

open Cert.ReferenceIdeal Cert.ReferenceIdeal.Gen Idealize.ShloMosaic Idealize.ShloMosaic.ValueIdx
open scoped BigOperators

/-- The block of packed rows through the layer: X · B + c. -/
def packed (x : FVec Ideal S1024x128 .f32) (wb : FVec Ideal S128x128 .f32) (bb : FVec Ideal S1x128 .f32) :
    FVec Ideal S1024x128 .f32 :=
  addf (matmul dot_S1024x128_S128x128_S1024x128_1_0_0_1_n_n none (shapeCast S1024x128 x Facts₀.shapeCasts_S1024x128_S1024x128)
      (shapeCast S128x128 wb Facts₀.shapeCasts_S128x128_S128x128) (constant S1024x128 .f32 0x00000000#32))
    (broadcastTo S1024x128 (shapeCast S1x128 bb Facts₀.shapeCasts_S1x128_S1x128) Facts₀.broadcasts_S1x128_S1024x128)

/-- Entry (r, q): packed row r against column q of the weight, plus the bias of lane q. -/
theorem packed_apply (x : FVec Ideal S1024x128 .f32) (wb : FVec Ideal S128x128 .f32) (bb : FVec Ideal S1x128 .f32)
    (r : Fin 1024) (q : Fin 128) :
    packed x wb bb (ix2 r q) = (∑ k : Fin 128, x (ix2 r k) * wb (ix2 k q)) + bb (ix2 (0 : Fin 1) q) := by
  unfold packed
  rw [addf_apply, shapeCast_self, shapeCast_self, shapeCast_self]
  congr 1
  · exact matmul_plain_zero_apply _ rfl none _ _ r q
  · refine broadcastTo_apply _ _ (ix2 r q) (ix2 (0 : Fin 1) q) ?_
    intro a
    match a with
    | ⟨0, _⟩ => rfl
    | ⟨1, _⟩ => rfl

/-- The payload of the body's one store is that. -/
theorem pay1_eq (x : Vec Ideal S1024x128 .f32) (wb : Vec Ideal S128x128 .f32) (bb : Vec Ideal S1x128 .f32) :
    k0_pay1 x wb bb = packed x wb bb := rfl

theorem zeros2 : (![0, 0] : Fin 2 → Nat) = fun _ => 0 := funext fun a => by fin_cases a <;> rfl

/-- The body loads and stores its whole staging buffers, so what it leaves in the output block is the payload of the
    blocks it loaded. -/
theorem out0_3_eq (x : Vec Ideal S1024x128 .f32) (wb : Vec Ideal S128x128 .f32) (bb : Vec Ideal S1x128 .f32) :
    out0_3 x wb bb = packed x wb bb := by
  unfold out0_3
  rw [View.canon_unit_zero zeros2]
  simp only [View.ld_unit_zero (S := S1024x128) zeros2, View.ld_unit_zero (S := S128x128) zeros2,
    View.ld_unit_zero (S := S1x128) zeros2]
  exact pay1_eq x wb bb

end Cert.ReferenceIdeal.PackedBody

end
-- ==== Proof.LibPairConcat.lean ====
/-
  Two arrays joined along an axis, read at an entry, for matrices: two blocks side by side (axis 1) and two blocks one
  above the other (axis 0). An entry whose coordinate on the joined axis lies below the first block's extent is the
  first block's entry at the same coordinates; an entry at or past it is the second block's, the first extent less.
  And the sum this splits: a sum over a + b places is the sum over the first a plus the sum over the last b.
  General in the extents and the element type.
-/
import Idealize.ShloMosaic.Lib.Pipeline.Value
import Idealize.ShloMosaic.Lib.ValueIdx

namespace Cert.PairConcat

open Idealize.ShloMosaic Idealize.ShloMosaic.ValueIdx

variable {α : Type}

/-- Two blocks side by side: a column of the first block. -/
theorem concat_cols_left {m a b c : ℕ} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, c]⟩ 1) (p : Fin m) (k : Fin a) (hk : k.val < c) :
    concatenate ⟨2, ![m, c]⟩ 1 [⟨⟨2, ![m, a]⟩, x₁⟩, ⟨⟨2, ![m, b]⟩, x₂⟩] h (ix2 p ⟨k.val, hk⟩) = x₁ (ix2 p k) := by
  refine concatenate_pair_apply_left (t := ⟨2, ![m, c]⟩) (1 : Fin 2) x₁ x₂ h _ rfl (ix2 p k) fun bx => ?_
  match bx with
  | ⟨0, _⟩ => rfl
  | ⟨1, _⟩ => rfl

/-- Two blocks side by side: a column of the second block. -/
theorem concat_cols_right {m a b c : ℕ} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, c]⟩ 1) (p : Fin m) (k : Fin b) (hk : a + k.val < c) :
    concatenate ⟨2, ![m, c]⟩ 1 [⟨⟨2, ![m, a]⟩, x₁⟩, ⟨⟨2, ![m, b]⟩, x₂⟩] h (ix2 p ⟨a + k.val, hk⟩) = x₂ (ix2 p k) := by
  refine concatenate_pair_apply_right (t := ⟨2, ![m, c]⟩) (1 : Fin 2) x₁ x₂ h _ rfl rfl (ix2 p k) (fun bx hb => ?_) ?_
  · match bx with
    | ⟨0, _⟩ => rfl
    | ⟨1, _⟩ => exact absurd rfl hb
  · show k.val + a = a + k.val
    omega

/-- Two blocks one above the other: a row of the first block. -/
theorem concat_rows_left {a b c n : ℕ} (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ 0) (k : Fin a) (hk : k.val < c) (q : Fin n) :
    concatenate ⟨2, ![c, n]⟩ 0 [⟨⟨2, ![a, n]⟩, x₁⟩, ⟨⟨2, ![b, n]⟩, x₂⟩] h (ix2 ⟨k.val, hk⟩ q) = x₁ (ix2 k q) := by
  refine concatenate_pair_apply_left (t := ⟨2, ![c, n]⟩) (0 : Fin 2) x₁ x₂ h _ rfl (ix2 k q) fun bx => ?_
  match bx with
  | ⟨0, _⟩ => rfl
  | ⟨1, _⟩ => rfl

/-- Two blocks one above the other: a row of the second block. -/
theorem concat_rows_right {a b c n : ℕ} (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ 0) (k : Fin b) (hk : a + k.val < c) (q : Fin n) :
    concatenate ⟨2, ![c, n]⟩ 0 [⟨⟨2, ![a, n]⟩, x₁⟩, ⟨⟨2, ![b, n]⟩, x₂⟩] h (ix2 ⟨a + k.val, hk⟩ q) = x₂ (ix2 k q) := by
  refine concatenate_pair_apply_right (t := ⟨2, ![c, n]⟩) (0 : Fin 2) x₁ x₂ h _ rfl rfl (ix2 k q) (fun bx hb => ?_) ?_
  · match bx with
    | ⟨0, _⟩ => exact absurd rfl hb
    | ⟨1, _⟩ => rfl
  · show k.val + a = a + k.val
    omega

/-- A sum over `a + b` places is the sum over the first `a` plus the sum over the last `b`. -/
theorem sum_split {M : Type*} [AddCommMonoid M] (a b c : ℕ) (hc : a + b = c) (f : Fin c → M) :
    ∑ k : Fin c, f k = ∑ k : Fin a, f ⟨k.val, by have := k.isLt; omega⟩ + ∑ k : Fin b, f ⟨a + k.val, by have := k.isLt; omega⟩ := by
  subst hc
  rw [Fin.sum_univ_add]
  rfl

end Cert.PairConcat
-- ==== Proof.PackedLayout.lean ====
/-
  The host's re-layouts around the packed kernel, read at an entry.
  * Packing: x : [8192, 32, 64] is flattened to rows [262144, 64] and the rows are paired, [131072, 128]: packed row r,
    lane k holds x(n, s, f) whenever r·128 + k = (n·32 + s)·64 + f (one row-major position).  Unpacking the result is the
    same relation read the other way.
  * The weight: B = [[Wᵀ, 0], [0, Wᵀ]] : [128, 128], built by three concatenations; its four 64 x 64 quarters read
    W(o, k) on the diagonal and 0 off it.
  * The bias: b twice, as one row [1, 128]: lane q and lane 64 + q both read b(q).
-/
import proofs.«132988_g2000303496618400_pallasbulk_434_12_alg».proof.Proof.Gen.ReferenceIdeal
import proofs.«132988_g2000303496618400_pallasbulk_434_12_alg».proof.Proof.LibPairConcat
import Idealize.ShloMosaic.Lib.Pipeline.Value
import Idealize.ShloMosaic.Lib.ValueIdx
import Idealize.ShloMosaic.PureOps.Ideal.Laws

set_option maxRecDepth 16384

noncomputable section

namespace Cert.ReferenceIdeal.PackedLayout

open Cert.ReferenceIdeal Cert.ReferenceIdeal.Gen Cert.PairConcat
open Idealize.ShloMosaic Idealize.ShloMosaic.ValueIdx
open scoped BigOperators

/-! ## Packing and unpacking rows -/

/-- x flattened to rows and the rows paired. -/
def packRows (x : S8192x32x64.Idx → EReal) : S131072x128.Idx → EReal :=
  shapeCast S131072x128 (shapeCast S262144x64 x Facts₀.shapeCasts_S8192x32x64_S262144x64) Facts₀.shapeCasts_S262144x64_S131072x128

/-- The packed result split back into rows and the rows regrouped. -/
def unpackRows (y : S131072x128.Idx → EReal) : S8192x32x64.Idx → EReal :=
  shapeCast S8192x32x64 (shapeCast S262144x64 y Facts₀.shapeCasts_S131072x128_S262144x64) Facts₀.shapeCasts_S262144x64_S8192x32x64

/-- Packed row r, lane k is x at the entry with the same row-major position. -/
theorem packRows_apply (x : S8192x32x64.Idx → EReal) (n : Fin 8192) (s : Fin 32) (f : Fin 64) (r : Fin 131072) (k : Fin 128)
    (h : r.val * 128 + k.val = (n.val * 32 + s.val) * 64 + f.val) : packRows x (ix2 r k) = x (ix3 n s f) := by
  unfold packRows
  have hR : n.val * 32 + s.val < 262144 := by have := n.isLt; have := s.isLt; omega
  refine (shapeCast_apply _ _ (ix2 r k) (ix2 (⟨n.val * 32 + s.val, hR⟩ : Fin 262144) f) ?_).trans
    (shapeCast_apply _ _ _ (ix3 n s f) ?_)
  · rw [Shape.rowMajor_val_two, Shape.rowMajor_val_two]
    show (n.val * 32 + s.val) * 64 + f.val = r.val * 128 + k.val
    omega
  · rw [Shape.rowMajor_val_two, Shape.rowMajor_val_three]
    show (n.val * 32 + s.val) * 64 + f.val = (n.val * 32 + s.val) * 64 + f.val
    rfl

/-- Entry (n, s, o) of the unpacked array is the packed array at the row and lane with the same row-major position. -/
theorem unpackRows_apply (y : S131072x128.Idx → EReal) (n : Fin 8192) (s : Fin 32) (o : Fin 64) (r : Fin 131072) (q : Fin 128)
    (h : r.val * 128 + q.val = (n.val * 32 + s.val) * 64 + o.val) : unpackRows y (ix3 n s o) = y (ix2 r q) := by
  unfold unpackRows
  have hR : n.val * 32 + s.val < 262144 := by have := n.isLt; have := s.isLt; omega
  refine (shapeCast_apply _ _ (ix3 n s o) (ix2 (⟨n.val * 32 + s.val, hR⟩ : Fin 262144) o) ?_).trans
    (shapeCast_apply _ _ _ (ix2 r q) ?_)
  · rw [Shape.rowMajor_val_two, Shape.rowMajor_val_three]
    show (n.val * 32 + s.val) * 64 + o.val = (n.val * 32 + s.val) * 64 + o.val
    rfl
  · rw [Shape.rowMajor_val_two, Shape.rowMajor_val_two]
    show r.val * 128 + q.val = (n.val * 32 + s.val) * 64 + o.val
    exact h

/-! ## The block-diagonal weight -/

/-- The 64 x 64 block of zeros. -/
def zeros64 : S64x64.Idx → EReal :=
  broadcastInDim S64x64 ![] Facts₀.bcast_S_S64x64 (constant (F := Ideal) S_ .f32 0x00000000#32)

theorem zeros64_apply (i : S64x64.Idx) : zeros64 i = 0 := by
  unfold zeros64
  refine (broadcastInDim_apply _ _ _ i ix0 (fun a => a.elim0)).trans ?_
  rw [constant_apply, Ideal.ofBits_zero_f32]

/-- W transposed: rows are input features. -/
def wT (w : S64x64.Idx → EReal) : S64x64.Idx → EReal := transpose S64x64 [1, 0] w Facts₀.transposes_S64x64_S64x64_1_0

theorem wT_apply (w : S64x64.Idx → EReal) (k o : Fin 64) : wT w (ix2 k o) = w (ix2 o k) := by
  unfold wT
  refine transpose_apply _ _ _ (ix2 k o) (ix2 o k) ?_
  intro d
  match d with
  | ⟨0, _⟩ => rfl
  | ⟨1, _⟩ => rfl

/-- [[Wᵀ, 0], [0, Wᵀ]]. -/
def blockDiag (w : S64x64.Idx → EReal) : S128x128.Idx → EReal :=
  concatenate S128x128 0
    [⟨S64x128, concatenate S64x128 1 [⟨S64x64, wT w⟩, ⟨S64x64, zeros64⟩] Facts₀.concatenates_S64x64_S64x64_S64x128_d1⟩,
     ⟨S64x128, concatenate S64x128 1 [⟨S64x64, zeros64⟩, ⟨S64x64, wT w⟩] Facts₀.concatenates_S64x64_S64x64_S64x128_d1⟩]
    Facts₀.concatenates_S64x128_S64x128_S128x128_d0

theorem blockDiag_upper_left (w : S64x64.Idx → EReal) (k o : Fin 64) (hk : k.val < 128) (ho : o.val < 128) :
    blockDiag w (ix2 (⟨k.val, hk⟩ : Fin 128) (⟨o.val, ho⟩ : Fin 128)) = w (ix2 o k) := by
  unfold blockDiag
  have ho' : o.val < 128 := ho
  refine (concat_rows_left _ _ _ k hk (⟨o.val, ho⟩ : Fin 128)).trans ?_
  exact (concat_cols_left _ _ _ k o ho).trans (wT_apply w k o)

theorem blockDiag_upper_right (w : S64x64.Idx → EReal) (k o : Fin 64) (hk : k.val < 128) (ho : 64 + o.val < 128) :
    blockDiag w (ix2 (⟨k.val, hk⟩ : Fin 128) (⟨64 + o.val, ho⟩ : Fin 128)) = 0 := by
  unfold blockDiag
  refine (concat_rows_left _ _ _ k hk (⟨64 + o.val, ho⟩ : Fin 128)).trans ?_
  exact (concat_cols_right _ _ _ k o ho).trans (zeros64_apply _)

theorem blockDiag_lower_left (w : S64x64.Idx → EReal) (k o : Fin 64) (hk : 64 + k.val < 128) (ho : o.val < 128) :
    blockDiag w (ix2 (⟨64 + k.val, hk⟩ : Fin 128) (⟨o.val, ho⟩ : Fin 128)) = 0 := by
  unfold blockDiag
  refine (concat_rows_right _ _ _ k hk (⟨o.val, ho⟩ : Fin 128)).trans ?_
  exact (concat_cols_left _ _ _ k o ho).trans (zeros64_apply _)

theorem blockDiag_lower_right (w : S64x64.Idx → EReal) (k o : Fin 64) (hk : 64 + k.val < 128) (ho : 64 + o.val < 128) :
    blockDiag w (ix2 (⟨64 + k.val, hk⟩ : Fin 128) (⟨64 + o.val, ho⟩ : Fin 128)) = w (ix2 o k) := by
  unfold blockDiag
  refine (concat_rows_right _ _ _ k hk (⟨64 + o.val, ho⟩ : Fin 128)).trans ?_
  exact (concat_cols_right _ _ _ k o ho).trans (wT_apply w k o)

/-! ## The doubled bias row -/

/-- b twice, as one row. -/
def biasRow (b : S64.Idx → EReal) : S1x128.Idx → EReal :=
  shapeCast S1x128 (concatenate S128 0 [⟨S64, b⟩, ⟨S64, b⟩] Facts₀.concatenates_S64_S64_S128_d0) Facts₀.shapeCasts_S128_S1x128

theorem biasRow_left (b : S64.Idx → EReal) (o : Fin 64) (ho : o.val < 128) :
    biasRow b (ix2 (0 : Fin 1) (⟨o.val, ho⟩ : Fin 128)) = b (ix1 o) := by
  unfold biasRow
  refine (shapeCast_apply _ _ (ix2 (0 : Fin 1) (⟨o.val, ho⟩ : Fin 128)) (ix1 (⟨o.val, ho⟩ : Fin 128)) ?_).trans ?_
  · rw [Shape.rowMajor_val_one, Shape.rowMajor_val_two]
    show o.val = 0 * 128 + o.val
    omega
  refine concatenate_pair_apply_left (t := S128) (0 : Fin 1) b b _ _ rfl (ix1 o) fun d => ?_
  match d with
  | ⟨0, _⟩ => rfl

theorem biasRow_right (b : S64.Idx → EReal) (o : Fin 64) (ho : 64 + o.val < 128) :
    biasRow b (ix2 (0 : Fin 1) (⟨64 + o.val, ho⟩ : Fin 128)) = b (ix1 o) := by
  unfold biasRow
  refine (shapeCast_apply _ _ (ix2 (0 : Fin 1) (⟨64 + o.val, ho⟩ : Fin 128)) (ix1 (⟨64 + o.val, ho⟩ : Fin 128)) ?_).trans ?_
  · rw [Shape.rowMajor_val_one, Shape.rowMajor_val_two]
    show 64 + o.val = 0 * 128 + (64 + o.val)
    omega
  refine concatenate_pair_apply_right (t := S128) (0 : Fin 1) b b _ _ rfl rfl (ix1 o) (fun d hd => ?_) ?_
  · match d with
    | ⟨0, _⟩ => exact absurd rfl hd
  · show o.val + 64 = 64 + o.val
    omega

end Cert.ReferenceIdeal.PackedLayout

end
-- ==== Proof.PackedValue.lean ====
/-
  The value of the packed kernel's run.  Before the call the host packs x : [8192, 32, 64] into rows of 128 lanes (two
  rows of 64 features side by side), builds the block-diagonal weight B = [[Wᵀ, 0], [0, Wᵀ]] and the doubled bias row;
  the call walks 128 blocks of 1024 packed rows and writes  y(r, q) = ∑ₖ xp(r, k) · B(k, q) + c(q),  k over the 128 lanes;
  after the call the host unpacks.  In a packed row the left 64 lanes meet only the left 64 columns of B and the right
  lanes the right columns: of the 128 terms the 64 that cross are a · 0 = 0, and the other 64 are x(n, s, k) · W(o, k).
  So the run ends with  result(n, s, o) = ∑ₖ W(o, k) · x(n, s, k) + b(o).
-/
import proofs.«132988_g2000303496618400_pallasbulk_434_12_alg».proof.Proof.PackedBody
import proofs.«132988_g2000303496618400_pallasbulk_434_12_alg».proof.Proof.PackedLayout
import proofs.«132988_g2000303496618400_pallasbulk_434_12_alg».proof.Proof.LinearSpec
import Idealize.ShloMosaic.Lib.StableHlo.Run

set_option maxRecDepth 16384

noncomputable section

namespace Cert.ReferenceIdeal.PackedValue

open Cert.ReferenceIdeal Cert.ReferenceIdeal.Gen Cert.ReferenceIdeal.PackedBody Cert.ReferenceIdeal.PackedLayout
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-! ## The arrays the call finds -/

/-- The call's first operand is x packed. -/
theorem V_v1 (c : Dev nD) : (V m c main_v1 : S131072x128.Idx → EReal) = packRows (m ((c : Thread nD τ).loc main_arg0)) := by
  dsimp only [V, V0]
  simp only [hostOps0, hostOps0_1, hostOps0_2, List.flatten_cons, List.flatten_nil, List.append_nil, List.cons_append,
    List.nil_append]
  after_results
  rfl

/-- Its second operand is the block-diagonal weight. -/
theorem V_v4 (c : Dev nD) : (V m c main_v4 : S128x128.Idx → EReal) = blockDiag (m ((c : Thread nD τ).loc main_arg1)) := by
  dsimp only [V, V0]
  simp only [hostOps0, hostOps0_1, hostOps0_2, List.flatten_cons, List.flatten_nil, List.append_nil, List.cons_append,
    List.nil_append]
  after_results
  rfl

/-- Its third operand is the doubled bias row. -/
theorem V_v6 (c : Dev nD) : (V m c main_v6 : S1x128.Idx → EReal) = biasRow (m ((c : Thread nD τ).loc main_arg2)) := by
  dsimp only [V, V0]
  simp only [hostOps0, hostOps0_1, hostOps0_2, List.flatten_cons, List.flatten_nil, List.append_nil, List.cons_append,
    List.nil_append]
  after_results
  rfl

/-! ## The array the call writes -/

/-- The whole output array of the call as a function of its three operand arrays. -/
def arrFn (xp : S131072x128.Idx → EReal) (wb : S128x128.Idx → EReal) (bb : S1x128.Idx → EReal) : S131072x128.Idx → EReal :=
  fun i => (∑ k : Fin 128, xp (ix2 (i 0) k) * wb (ix2 k (i 1))) + bb (ix2 (0 : Fin 1) (i 1))

/-- A block of it is the body's payload of the operands' blocks, once those are read where the output's block lies. -/
theorem packed_eq_arrFn (X : Vec Ideal S1024x128 .f32) (W : Vec Ideal S128x128 .f32) (Bb : Vec Ideal S1x128 .f32)
    (xp : S131072x128.Idx → EReal) (wb : S128x128.Idx → EReal) (bb : S1x128.Idx → EReal)
    (j : S1024x128.Idx) (i : S131072x128.Idx)
    (hX : ∀ k : Fin 128, X (ix2 (j 0) k) = xp (ix2 (i 0) k))
    (hW : ∀ k : Fin 128, W (ix2 k (j 1)) = wb (ix2 k (i 1)))
    (hB : Bb (ix2 (0 : Fin 1) (j 1)) = bb (ix2 (0 : Fin 1) (i 1))) :
    packed X W Bb j = arrFn xp wb bb i := by
  obtain ⟨r, q, rfl⟩ : ∃ (r : Fin 1024) (q : Fin 128), j = ix2 r q := ⟨j 0, j 1, eq_ix2 j⟩
  rw [packed_apply]
  unfold arrFn
  exact congrArg₂ (· + ·) (Finset.sum_congr rfl fun k _ => congrArg₂ (· * ·) (hX k) (hW k)) hB

/-- The index maps, decided over the 128 points: the packed rows' block and the output block move together along the
    rows, every other block index is zero. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every block of rows is some point's. -/
theorem idx_onto : ∀ q : Fin 128, ∃ t : Fin cfg0.N, win0_3.index t = ![q.val, 0] :=
  (by decide +kernel : ∀ q : Fin 128, ∃ t : Fin grid0.N, win0_3.index t = ![q.val, 0])

/-- What point t writes back is block t of the array function of the operands as the call finds them. -/
theorem flushed_eq (c : Dev nD) (t : Fin cfg0.N) :
    (dats m 0 c).flushed 3 t
      = ((cfg0.win 3).blk t).view.read (Elt Ideal) (arrFn (V m c main_v1) (V m c main_v4) (V m c main_v6)) := by
  show (cfg0.win 3).cut (grid0.coords t) ((dats m 0 c).after 3 t) = _
  rw [after0_3, out0_3_eq]
  obtain ⟨e0, e1, e2, e3, e4, e5, e6⟩ := idx_facts t
  funext j
  refine packed_eq_arrFn _ _ _ _ _ _ j (((cfg0.win 3).blk t).view.emb j) (fun k => ?_) (fun k => ?_) ?_
  · show V m c main_v1 (((cfg0.win 0).blk t).view.emb (ix2 (j 0) k)) = V m c main_v1 _
    congr 1
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 128 + 1 * k.val = k.val; omega
  · show V m c main_v4 (((cfg0.win 1).blk t).view.emb (ix2 k (j 1))) = V m c main_v4 _
    congr 1
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · show V m c main_v6 (((cfg0.win 2).blk t).view.emb (ix2 (0 : Fin 1) (j 1))) = V m c main_v6 _
    congr 1
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega

/-- An index of the array is in point t's block iff each coordinate is in the block's range on its axis. -/
theorem mem_blk (t : Fin cfg0.N) (i : S131072x128.Idx) :
    i ∈ ((cfg0.win 3).blk t).view.set ↔ ∀ a : Fin 2, win0_3.index t a * S1024x128.size a ≤ (i a).val
      ∧ (i a).val < win0_3.index t a * S1024x128.size a + S1024x128.size a := by
  show i ∈ ((View.whole main_v7).slice (win0_3.rect t)).set ↔ _
  rw [View.set_slice_whole, Rect.mem_set_unit]
  exact Iff.rfl

/-- Every index is in some point's block: the one of its 1024 rows. -/
theorem cover (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 128 ≤ (i 1).val ∧ (i 1).val < win0_3.index t (1 : Fin 2) * 128 + 128; omega

/-- The array after the call. -/
theorem final (c : Dev nD) :
    (dats m 0 c).arrAt 3 cfg0.N = arrFn (V m c main_v1) (V m c main_v4) (V m c main_v6) :=
  (dats m 0 c).arrAt_eq_of_cover 3 _ (fun t _ => flushed_eq m c t) cover

/-! ## The packed layer is the layer -/

/-- A packed row against a column of the block-diagonal weight, for an even row s (left half of the packed row, left
    columns) and for an odd one (right half, right columns): the 64 crossing terms vanish. -/
theorem result_eq (x : S8192x32x64.Idx → EReal) (w : S64x64.Idx → EReal) (b : S64.Idx → EReal) :
    unpackRows (arrFn (packRows x) (blockDiag w) (biasRow b)) = Cert.Linear.linear x w b := by
  funext i
  obtain ⟨n, s, o, rfl⟩ : ∃ (n : Fin 8192) (s : Fin 32) (o : Fin 64), i = ix3 n s o := ⟨i 0, i 1, i 2, eq_ix3 i⟩
  have hn : n.val < 8192 := n.isLt
  have hs : s.val < 32 := s.isLt
  have ho : o.val < 64 := o.isLt
  have hr : (n.val * 32 + s.val) / 2 < 131072 := by omega
  unfold Cert.Linear.linear
  rcases Nat.mod_two_eq_zero_or_one (n.val * 32 + s.val) with h2 | h2
  · -- an even row: the left half of the packed row
    have hq : o.val < 128 := by omega
    rw [unpackRows_apply _ n s o ⟨(n.val * 32 + s.val) / 2, hr⟩ ⟨o.val, hq⟩ (by show (n.val * 32 + s.val) / 2 * 128 + o.val = _; omega)]
    unfold arrFn
    rw [Cert.PairConcat.sum_split 64 64 128 rfl, biasRow_left b o hq]
    congr 1
    rw [Cert.Linear.sum_mul_zero _ _ (fun k : Fin 64 => blockDiag_lower_left w k o (by have := k.isLt; omega) hq), add_zero]
    refine Finset.sum_congr rfl fun k _ => ?_
    have hk : k.val < 64 := k.isLt
    rw [blockDiag_upper_left w k o (by omega) hq,
      packRows_apply x n s k ⟨(n.val * 32 + s.val) / 2, hr⟩ ⟨k.val, by omega⟩ (by show (n.val * 32 + s.val) / 2 * 128 + k.val = _; omega)]
    exact mul_comm _ _
  · -- an odd row: the right half
    have hq : 64 + o.val < 128 := by omega
    rw [unpackRows_apply _ n s o ⟨(n.val * 32 + s.val) / 2, hr⟩ ⟨64 + o.val, hq⟩ (by show (n.val * 32 + s.val) / 2 * 128 + (64 + o.val) = _; omega)]
    unfold arrFn
    rw [Cert.PairConcat.sum_split 64 64 128 rfl, biasRow_right b o hq]
    congr 1
    rw [Cert.Linear.sum_mul_zero _ _ (fun k : Fin 64 => blockDiag_upper_right w k o (by have := k.isLt; omega) hq), zero_add]
    refine Finset.sum_congr rfl fun k _ => ?_
    have hk : k.val < 64 := k.isLt
    rw [blockDiag_lower_right w k o (by omega) hq,
      packRows_apply x n s k ⟨(n.val * 32 + s.val) / 2, hr⟩ ⟨64 + k.val, by omega⟩ (by show (n.val * 32 + s.val) / 2 * 128 + (64 + k.val) = _; omega)]
    exact mul_comm _ _

/-! ## The unpacking after the call, and the run -/

/-- After the lines that follow the call, the result buffer holds the written array unpacked. -/
theorem tail_v9 (c : Dev nD) :
    (Pipeline.afterTail₀ cfgs (dats m) 0 (V0 m) [hostOps1] c main_v9 : S8192x32x64.Idx → EReal)
      = unpackRows ((dats m 0 c).arrAt 3 cfg0.N) := by
  unfold Pipeline.afterTail₀
  show StableHlo.after hostOps1 _ (Proc.devRef .tc main_v9) = _
  after_results
  exact congrArg unpackRows (Pipeline.withArrays_arr spec0 launch0.win.arr_inj c _ _ 3)

/-- The run: it ends with the result at the linear layer of the arguments, and the arguments unchanged. -/
theorem run : θ_run defs (onTc (τ := τ) (main (F := Ideal))) ⟨m, fun _ => 0, ρ⟩ fun r => ∀ c : Dev nD,
      r.2.mem ((c : Thread nD τ).loc main_v9)
        = Cert.Linear.linear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v9 (Pipeline.mem_restRefs_of main_v9 (by decide) (by decide))).trans (by
        rw [tail_v9, final, V_v1, V_v4, V_v6]
        exact result_eq _ _ _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.PackedValue

end
-- ==== Proof.lean ====
/-
  Both programs are the same 64 -> 64 linear layer over x : [8192, 32, 64]:
      y(n, s, o) = ∑ₖ W(o, k) · x(n, s, k) + b(o).
  The kernel moves the batch axis last, multiplies W against each of the 32 positions' 64 x 8192 matrix and transposes
  back; the reference packs two rows of 64 features into one row of 128 lanes and multiplies by the block-diagonal
  weight [[Wᵀ, 0], [0, Wᵀ]].  On the extended reals each run ends at the layer above, entry by entry: for the kernel the
  transposes only rename the entry; for the reference the 64 terms of a packed row that cross the diagonal are a · 0 = 0
  and the other 64 are the layer's products with the factors swapped.  No step uses that the inputs are finite.
-/
import proofs.«132988_g2000303496618400_pallasbulk_434_12_alg».proof.Defs
import proofs.«132988_g2000303496618400_pallasbulk_434_12_alg».proof.Proof.Gen.Kernel
import proofs.«132988_g2000303496618400_pallasbulk_434_12_alg».proof.Proof.Gen.Kernel.Frame
import proofs.«132988_g2000303496618400_pallasbulk_434_12_alg».proof.Proof.Gen.KernelIdeal
import proofs.«132988_g2000303496618400_pallasbulk_434_12_alg».proof.Proof.Gen.KernelIdeal.Frame
import proofs.«132988_g2000303496618400_pallasbulk_434_12_alg».proof.Proof.Gen.ReferenceIdeal
import proofs.«132988_g2000303496618400_pallasbulk_434_12_alg».proof.Proof.Gen.ReferenceIdeal.Frame
import proofs.«132988_g2000303496618400_pallasbulk_434_12_alg».proof.Proof.Gen.Pre_finite_inputs
import proofs.«132988_g2000303496618400_pallasbulk_434_12_alg».proof.Proof.CfValue
import proofs.«132988_g2000303496618400_pallasbulk_434_12_alg».proof.Proof.PackedValue
import Idealize.ShloMosaic.Adequacy
import Idealize.ShloMosaic.Init

noncomputable section

namespace Cert.Proof

open Idealize.ShloMosaic Idealize.SL.Sem

/-- The three programs run and keep their arguments. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- From memories that agree on x, W and b, both runs end with the linear layer of those arguments. -/
theorem algebraic : Cert.algebraic_KernelIdeal_ReferenceIdeal := by
  intro m ρ m' ρ' _ hagree
  refine ⟨fun c => Cert.Linear.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.CfValue.run m ρ, ?_⟩
  refine (θ_run Cert.ReferenceIdeal.defs _ _).mono (fun _ h c => ⟨(h c).1.trans ?_, (h c).2⟩)
    (Cert.ReferenceIdeal.PackedValue.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
